-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x2048 : Shape := ⟨3, ![16, 1024, 2048]⟩
abbrev S_ : Shape := ⟨0, ![]⟩

class Facts : Prop where
  bcast_S_S16x1024x2048 : S_.BroadcastsInDim S16x1024x2048 (![] : Fin 0 → Fin S16x1024x2048.rank)
  reducesTo_S16x1024x2048_S_d0_1_2 : S16x1024x2048.ReducesTo [0, 1, 2] S_
  h_S_ : 0 < S_.numel

variable [Facts]

def fn {F : FTy → Type} [FloatOps F] (main_arg0 : FVec F S16x1024x2048 .f32) (main_arg1 : FVec F S16x1024x2048 .f32) : IVec S_ 1 :=
  let main_v0 : FVec F S16x1024x2048 .f32 := Host.absf main_arg0
  let main_cst : FVec F S_ .f32 := constant S_ .f32 0x7F800000#32
  let main_v1 : FVec F S16x1024x2048 .f32 := broadcastInDim S16x1024x2048 ![] bcast_S_S16x1024x2048 main_cst
  let main_v2 : IVec S16x1024x2048 1 := cmpf .olt main_v0 main_v1
  let main_c : IVec S_ 1 := constantI S_ 1 1#1
  let main_v3 : IVec S_ 1 := (fun x v => Host.reduce IntOp.andi x v reducesTo_S16x1024x2048_S_d0_1_2 h_S_) main_v2 main_c
  let main_v4 : FVec F S16x1024x2048 .f32 := Host.absf main_arg1
  let main_cst_0 : FVec F S_ .f32 := constant S_ .f32 0x7F800000#32
  let main_v5 : FVec F S16x1024x2048 .f32 := broadcastInDim S16x1024x2048 ![] bcast_S_S16x1024x2048 main_cst_0
  let main_v6 : IVec S16x1024x2048 1 := cmpf .olt main_v4 main_v5
  let main_c_1 : IVec S_ 1 := constantI S_ 1 1#1
  let main_v7 : IVec S_ 1 := (fun x v => Host.reduce IntOp.andi x v reducesTo_S16x1024x2048_S_d0_1_2 h_S_) main_v6 main_c_1
  let main_v8 : IVec S_ 1 := andi main_v3 main_v7
  main_v8
-- ==== Kernel.lean ====
abbrev S16x1024x2048 : Shape := ⟨3, ![16, 1024, 2048]⟩
abbrev S16x1024 : Shape := ⟨2, ![16, 1024]⟩
abbrev S8x128x2048 : Shape := ⟨3, ![8, 128, 2048]⟩
abbrev S8x128 : Shape := ⟨2, ![8, 128]⟩
abbrev S8x128x128 : Shape := ⟨3, ![8, 128, 128]⟩

abbrev nBuf : Space → Nat
  | .hbm => 3
  | .vmem => 6
  | .smem => 0
  | _ => 0

abbrev bufTy : (tb : Table) → Fin (tcTables nBuf tb) → BufTy
  | .hbm, ⟨0, _⟩ => ⟨S16x1024x2048, .f32⟩
  | .hbm, ⟨1, _⟩ => ⟨S16x1024x2048, .f32⟩
  | .hbm, ⟨2, _⟩ => ⟨S16x1024, .f32⟩
  | .local _ .vmem, ⟨0, _⟩ => ⟨S8x128x2048, .f32⟩
  | .local _ .vmem, ⟨1, _⟩ => ⟨S8x128x2048, .f32⟩
  | .local _ .vmem, ⟨2, _⟩ => ⟨S8x128x2048, .f32⟩
  | .local _ .vmem, ⟨3, _⟩ => ⟨S8x128x2048, .f32⟩
  | .local _ .vmem, ⟨4, _⟩ => ⟨S8x128, .f32⟩
  | .local _ .vmem, ⟨5, _⟩ => ⟨S8x128, .f32⟩
  | _, _ => ⟨S16x1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

@[reducible] def k0_t1_loop : Scf.Loop 32 :=
  let c0_i32 : BitVec 32 := 0#32
  let c16_i32 : BitVec 32 := 16#32
  let v3 : BitVec 32 := Scalar.addi c0_i32 c16_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v21 : BitVec 32 := Scalar.muli arg5 c128_i32
  v21
def k0_off1 (k0_t1 : Fin k0_t1_loop.trips) : Fin 3 → Nat :=
  let c0_12 : Index := 0#32
  let c0_13 : Index := 0#32
  let c0_i32 : BitVec 32 := 0#32
  let c1_i32 : BitVec 32 := 1#32
  let arg5 : BitVec 32 := Scf.iv c0_i32 c1_i32 k0_t1
  let c128_i32 : BitVec 32 := 128#32
  let v21 : BitVec 32 := Scalar.muli arg5 c128_i32
  let v22 : BitVec 32 := v21
  let v23 : Index := Scalar.indexCast v22
  ![0, 0, v23.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  h_S8x128x128 : 0 < S8x128x128.numel
  reduces_S8x128x128_S8x128 : S8x128x128.Reduces [2] S8x128
  inb_S8x128_S8x128_0_0 : ∀ a, (![0, 0] : Fin 2 → Nat) a + S8x128.size a ≤ S8x128.size a
  h_S8x128 : 0 < S8x128.numel
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S8x128x128.size a ≤ S8x128x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x2048.size a ≤ S16x1024x2048.size a
  hwx0_0 : ∀ i : grid0.Coords, EltTy.bits .f32 = 32 ∨ (Rect.block (s := S16x1024x2048) S8x128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x2048.size a ≤ S16x1024x2048.size a
  hwx0_1 : ∀ i : grid0.Coords, EltTy.bits .f32 = 32 ∨ (Rect.block (s := S16x1024x2048) S8x128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x1024.size a
  hwx0_2 : ∀ i : grid0.Coords, EltTy.bits .f32 = 32 ∨ (Rect.block (s := S16x1024) S8x128.size (cc0_transform_2 i) (hinb0_2 i)).WholeWords (EltTy.packing .f32)

variable [Facts₀]

abbrev win0_0 : Pipeline.Window sig grid0 :=
  Pipeline.Window.ofSpec (Memref.whole main_arg0) S8x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x1024x2048 : Shape := ⟨3, ![16, 1024, 2048]⟩
abbrev S_ : Shape := ⟨0, ![]⟩
abbrev S16x1024 : Shape := ⟨2, ![16, 1024]⟩
abbrev S16x1024x1 : Shape := ⟨3, ![16, 1024, 1]⟩

abbrev nBuf : Space → Nat
  | .hbm => 27
  | .vmem => 0
  | .smem => 0
  | _ => 0

abbrev bufTy : (tb : Table) → Fin (tcTables nBuf tb) → BufTy
  | .hbm, ⟨0, _⟩ => ⟨S16x1024x2048, .f32⟩
  | .hbm, ⟨1, _⟩ => ⟨S16x1024x2048, .f32⟩
  | .hbm, ⟨2, _⟩ => ⟨S_, .f32⟩
  | .hbm, ⟨3, _⟩ => ⟨S16x1024, .f32⟩
  | .hbm, ⟨4, _⟩ => ⟨S16x1024x1, .f32⟩
  | .hbm, ⟨5, _⟩ => ⟨S_, .f32⟩
  | .hbm, ⟨6, _⟩ => ⟨S16x1024x1, .f32⟩
  | .hbm, ⟨7, _⟩ => ⟨S16x1024x1, .f32⟩
  | .hbm, ⟨8, _⟩ => ⟨S16x1024x2048, .f32⟩
  | .hbm, ⟨9, _⟩ => ⟨S16x1024x2048, .f32⟩
  | .hbm, ⟨10, _⟩ => ⟨S_, .f32⟩
  | .hbm, ⟨11, _⟩ => ⟨S16x1024, .f32⟩
  | .hbm, ⟨12, _⟩ => ⟨S16x1024x1, .f32⟩
  | .hbm, ⟨13, _⟩ => ⟨S_, .f32⟩
  | .hbm, ⟨14, _⟩ => ⟨S16x1024x1, .f32⟩
  | .hbm, ⟨15, _⟩ => ⟨S16x1024x1, .f32⟩
  | .hbm, ⟨16, _⟩ => ⟨S16x1024x2048, .f32⟩
  | .hbm, ⟨17, _⟩ => ⟨S16x1024x2048, .f32⟩
  | .hbm, ⟨18, _⟩ => ⟨S16x1024x2048, .f32⟩
  | .hbm, ⟨19, _⟩ => ⟨S_, .f32⟩
  | .hbm, ⟨20, _⟩ => ⟨S16x1024, .f32⟩
  | .hbm, ⟨21, _⟩ => ⟨S_, .f32⟩
  | .hbm, ⟨22, _⟩ => ⟨S16x1024, .f32⟩
  | .hbm, ⟨23, _⟩ => ⟨S16x1024, .f32⟩
  | .hbm, ⟨24, _⟩ => ⟨S_, .f32⟩
  | .hbm, ⟨25, _⟩ => ⟨S16x1024, .f32⟩
  | .hbm, ⟨26, _⟩ => ⟨S16x1024, .f32⟩
  | _, _ => ⟨S16x1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  reducesTo_S16x1024x2048_S16x1024_d2 : S16x1024x2048.ReducesTo [2] S16x1024
  h_S_ : 0 < S_.numel
  bcast_S16x1024_S16x1024x1_0_1 : S16x1024.BroadcastsInDim S16x1024x1 (![0, 1] : Fin 2 → Fin S16x1024x1.rank)
  bcast_S_S16x1024x1 : S_.BroadcastsInDim S16x1024x1 (![] : Fin 0 → Fin S16x1024x1.rank)
  bcast_S16x1024x1_S16x1024x2048_0_1_2 : S16x1024x1.BroadcastsInDim S16x1024x2048 (![0, 1, 2] : Fin 3 → Fin S16x1024x2048.rank)
  bcast_S_S16x1024 : S_.BroadcastsInDim S16x1024 (![] : Fin 0 → Fin S16x1024.rank)

variable [Facts₀]

class Facts : Prop extends Facts₀ where

variable [Facts]
-- ==== Proof.CovLaw.lean ====
/-
  The covariance identity over the reals.

  For a finite family of pairs (x t, y t) with N := the (nonzero) number of samples as a real,
  mx := (Σ x) / N and my := (Σ y) / N, the centred product sum equals the raw product sum
  minus N · mx · my:

      Σ_t (x t - mx) * (y t - my) = Σ_t x t * y t - N * mx * my.

  Expanding the product gives Σ x·y - my·Σx - mx·Σy + N·mx·my, and Σx = N·mx, Σy = N·my,
  so two of the three correction terms cancel.
-/
import Mathlib.Algebra.BigOperators.Field
import Mathlib.Tactic.FieldSimp
import Mathlib.Tactic.Ring
import Mathlib.Data.Real.Basic

namespace CovLaw

open Finset

/-- The centred product sum is the raw product sum minus N·mx·my, when N is the number of samples. -/
theorem centred_sum_eq {ι : Type*} [Fintype ι] (x y : ι → ℝ) (N : ℝ) (hN : N ≠ 0)
    (hcard : (Fintype.card ι : ℝ) = N) :
    ∑ t, (x t - (∑ s, x s) / N) * (y t - (∑ s, y s) / N)
      = (∑ t, x t * y t) - N * ((∑ s, x s) / N) * ((∑ s, y s) / N) := by
  have e : ∀ t, (x t - (∑ s, x s) / N) * (y t - (∑ s, y s) / N)
      = x t * y t - x t * ((∑ s, y s) / N) - ((∑ s, x s) / N) * y t
        + ((∑ s, x s) / N) * ((∑ s, y s) / N) := fun t => by ring
  simp only [e, sum_add_distrib, sum_sub_distrib, ← sum_mul, ← mul_sum, sum_const, card_univ,
    nsmul_eq_mul, hcard]
  field_simp
  ring

end CovLaw
-- ==== Proof.RowLaw.lean ====
/-
  One output element of the temporal cross-covariance, on the extended reals.

  A row is the 2048 time samples (x t, y t) of one (batch, channel) pair. Two formulas for its output:

  * the streaming formula sums x, y and x·y over the row, then forms
        max ((Σxy - 2048 · (Σx / 2048) · (Σy / 2048)) / 7, 0);
    the row sums themselves are taken lane by lane: time 128·k + l is chunk k, lane l, and the
    sum over time is the sum over the 128 lanes of the sum over the 16 chunks;
  * the centred formula subtracts the row means first:
        max ((0 + Σ_t (x t - (0 + Σx) / 2048) · (y t - (0 + Σy) / 2048)) / 7, 0).

  On the extended reals the two differ at infinities (distributivity fails there), so the
  equality is stated for rows of REAL numbers: then every quantity is a real, the division by the
  nonzero reals 2048 and 7 is multiplication by the reciprocal, and the covariance identity over ℝ
  (CovLaw.centred_sum_eq) closes it.
-/
import proofs.«154748_j42090679500988_2_alg».proof.Proof.CovLaw
import Idealize.ShloMosaic.PureOps.Ideal
import Mathlib.Logic.Equiv.Fin.Basic
import Mathlib.Algebra.BigOperators.Fin

noncomputable section

namespace RowLaw

open Idealize.ShloMosaic Finset

/-! ## The three float constants the two programs spell -/

/-- The pattern of `2048.0` denotes the real 2048. -/
theorem ofBits_2048 : Ideal.ofBits .f32 0x45000000#32 = ((2048 : ℝ) : EReal) := by
  simp [Ideal.ofBits, Ideal.ieee, -EReal.coe_mul]; norm_num

/-- The pattern of `7.0` denotes the real 7. -/
theorem ofBits_7 : Ideal.ofBits .f32 0x40E00000#32 = ((7 : ℝ) : EReal) := by
  simp [Ideal.ofBits, Ideal.ieee, -EReal.coe_mul]; norm_num

/-- The pattern of `+0.0` denotes 0. -/
theorem ofBits_0 : Ideal.ofBits .f32 0x00000000#32 = (0 : EReal) := by
  simp [Ideal.ofBits, Ideal.ieee]

/-! ## Time = 128 · chunk + lane -/

/-- The time index of lane `l` of chunk `k`. -/
def col (k : Fin 16) (l : Fin 128) : Fin 2048 := ⟨128 * k.val + l.val, by omega⟩

/-- (chunk, lane) ↦ time is a bijection of Fin 16 × Fin 128 with Fin 2048. -/
def colEquiv : Fin 16 × Fin 128 ≃ Fin 2048 where
  toFun p := col p.1 p.2
  invFun t := (⟨t.val / 128, by omega⟩, ⟨t.val % 128, by omega⟩)
  left_inv p := by
    obtain ⟨k, l⟩ := p
    apply Prod.ext <;> apply Fin.ext <;> simp only [col] <;> omega
  right_inv t := by
    apply Fin.ext; simp only [col]; omega

/-- A sum over lanes of sums over chunks is the sum over all times, in any commutative monoid. -/
theorem sum_lanes_chunks {M : Type*} [AddCommMonoid M] (f : Fin 2048 → M) :
    ∑ l : Fin 128, ∑ k : Fin 16, f (col k l) = ∑ t : Fin 2048, f t := by
  rw [Finset.sum_comm, ← Fintype.sum_prod_type (f := fun p : Fin 16 × Fin 128 => f (col p.1 p.2))]
  exact Equiv.sum_comp colEquiv f

/-! ## Sums of reals inside the extended reals -/

/-- The coercion ℝ → EReal commutes with finite sums. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The two formulas -/

/-- The streaming formula, from the three row sums. -/
def streaming (sx sy sxy : EReal) : EReal :=
  max (Ideal.div (sxy - Ideal.ofBits .f32 0x45000000#32 * Ideal.div sx (Ideal.ofBits .f32 0x45000000#32)
        * Ideal.div sy (Ideal.ofBits .f32 0x45000000#32)) (Ideal.ofBits .f32 0x40E00000#32))
    (Ideal.ofBits .f32 0x00000000#32)

/-- The centred formula, from the row. -/
def centred (x y : Fin 2048 → EReal) : EReal :=
  max (Ideal.div (Ideal.ofBits .f32 0x00000000#32
        + ∑ t : Fin 2048, (x t - Ideal.div (Ideal.ofBits .f32 0x00000000#32 + ∑ s : Fin 2048, x s) (Ideal.ofBits .f32 0x45000000#32))
            * (y t - Ideal.div (Ideal.ofBits .f32 0x00000000#32 + ∑ s : Fin 2048, y s) (Ideal.ofBits .f32 0x45000000#32)))
      (Ideal.ofBits .f32 0x40E00000#32))
    (Ideal.ofBits .f32 0x00000000#32)

/-- On a row of real numbers the streaming formula over lane-by-lane sums is the centred formula. -/
theorem streaming_eq_centred (x y : Fin 2048 → EReal)
    (hx : ∀ t, ∃ r : ℝ, x t = (r : EReal)) (hy : ∀ t, ∃ r : ℝ, y t = (r : EReal)) :
    streaming (∑ l : Fin 128, ∑ k : Fin 16, x (col k l)) (∑ l : Fin 128, ∑ k : Fin 16, y (col k l))
        (∑ l : Fin 128, ∑ k : Fin 16, x (col k l) * y (col k l))
      = centred x y := by
  choose xr hxr using hx
  choose yr hyr using hy
  have ex : x = fun t => ((xr t : ℝ) : EReal) := funext hxr
  have ey : y = fun t => ((yr t : ℝ) : EReal) := funext hyr
  subst ex; subst ey
  rw [sum_lanes_chunks (fun t => ((xr t : ℝ) : EReal)), sum_lanes_chunks (fun t => ((yr t : ℝ) : EReal)),
    sum_lanes_chunks (fun t => ((xr t : ℝ) : EReal) * ((yr t : ℝ) : EReal))]
  unfold streaming centred
  have h2048 : (2048 : ℝ) ≠ 0 := by norm_num
  simp only [ofBits_2048, ofBits_7, ofBits_0, zero_add, Ideal.div_coe h2048, ← EReal.coe_mul, coe_sum,
    ← EReal.coe_sub]
  refine congrArg (fun z : ℝ => max (Ideal.div (z : EReal) ((7 : ℝ) : EReal)) (0 : EReal)) ?_
  have hc := CovLaw.centred_sum_eq xr yr 2048 h2048 (by simp)
  simp only [div_eq_mul_one_div (∑ s, xr s) (2048 : ℝ), div_eq_mul_one_div (∑ s, yr s) (2048 : ℝ)] at hc
  exact hc.symm

end RowLaw

end
-- ==== Proof.Carried.lean ====
/-
  What the chunk loop carries.

  The body keeps three accumulators of shape (8, 128, 128): at (b, r, l) the running sums, over the
  chunks k seen so far, of x, of y and of x·y at time 128·k + l of row (b, r) of the block. Each
  trip loads chunk k of both blocks (the 128 consecutive times from 128·k) and adds. They start at
  zero, so before trip n they hold the sums over the chunks k < n.
-/
import proofs.«154748_j42090679500988_2_alg».proof.Proof.Gen.KernelIdeal.Frame
import proofs.«154748_j42090679500988_2_alg».proof.Proof.RowLaw
import Idealize.ShloMosaic.Lib.ValueIdx
import Idealize.ShloMosaic.Lib.Pipeline.Value
import Idealize.ShloMosaic.PureOps.Ideal.Laws

set_option maxRecDepth 16384

noncomputable section

namespace Cert.KernelIdeal.Carried

open Cert.KernelIdeal Cert.KernelIdeal.Gen Idealize.ShloMosaic Idealize.ShloMosaic.ValueIdx Idealize.SL.Sem RowLaw

/-- The loop runs its 16 trips. -/
theorem trips_eq : k0_t1_loop.trips = 16 := by decide +kernel

/-- Where a trip's load reads: element (b, r, l) of chunk `k` is the block at time 128·k + l. -/
theorem chunk_idx (k : Fin k0_t1_loop.trips) (hk : k.val < 16) (j : S8x128x128.Idx) :
    (Rect.unit (s := S8x128x2048) (k0_off1 k) S8x128x128.size (k0_off1_inb k)).idx j
      = ix3 (j 0) (j 1) (col ⟨k.val, hk⟩ (j 2)) := by
  funext a; apply Fin.ext
  match a with
  | ⟨0, _⟩ => show (k0_off1 k) 0 + 1 * (j 0).val = (j 0).val; rw [k0_off1_eq]; simp
  | ⟨1, _⟩ => show (k0_off1 k) 1 + 1 * (j 1).val = (j 1).val; rw [k0_off1_eq]; simp
  | ⟨2, _⟩ => show (k0_off1 k) 2 + 1 * (j 2).val = 128 * k.val + (j 2).val; rw [k0_off1_eq]; simp

section
variable (𝒱 : Variants) (c : Dev nD) (bd : Option 𝒱.V) (i : grid0.Coords)
  (arg2 : Memref sig .tc .vmem S8x128x2048 .f32) (harg2 : arg2.IsWhole)
  (arg3 : Memref sig .tc .vmem S8x128x2048 .f32) (harg3 : arg3.IsWhole)
  (arg4 : Memref sig .tc .vmem S8x128 .f32) (harg4 : arg4.IsWhole)
  (x0 x1 : Vec Ideal S8x128x2048 .f32)

/-- One trip, as a triple: each accumulator plus the loaded chunk (of x, of y, of the product). -/
theorem trip_eq (k : Fin k0_t1_loop.trips)
    (acc : FVec Ideal S8x128x128 .f32 × FVec Ideal S8x128x128 .f32 × FVec Ideal S8x128x128 .f32) :
    tripR_k0_t1 (F := Ideal) 𝒱 c bd i arg2 harg2 arg3 harg3 arg4 harg4 (harg2.unread x0) (harg3.unread x1) k acc
      = (addf acc.1 (View.ld x0 (Rect.unit (s := S8x128x2048) (k0_off1 k) S8x128x128.size (k0_off1_inb k))),
         addf acc.2.1 (View.ld x1 (Rect.unit (s := S8x128x2048) (k0_off1 k) S8x128x128.size (k0_off1_inb k))),
         addf acc.2.2 (mulf (View.ld x0 (Rect.unit (s := S8x128x2048) (k0_off1 k) S8x128x128.size (k0_off1_inb k)))
           (View.ld x1 (Rect.unit (s := S8x128x2048) (k0_off1 k) S8x128x128.size (k0_off1_inb k))))) := by
  unfold tripR_k0_t1 trip_k0_t1
  dsimp only
  simp only [View.readAt_eq_ld, harg2.read_unread, harg3.read_unread]
  rfl

/-- One trip at an element: chunk `k`'s time 128·k + l of row (b, r) is added. -/
theorem trip_apply (k : Fin k0_t1_loop.trips) (hk : k.val < 16)
    (acc : FVec Ideal S8x128x128 .f32 × FVec Ideal S8x128x128 .f32 × FVec Ideal S8x128x128 .f32) (j : S8x128x128.Idx) :
    (tripR_k0_t1 (F := Ideal) 𝒱 c bd i arg2 harg2 arg3 harg3 arg4 harg4 (harg2.unread x0) (harg3.unread x1) k acc).1 j
        = acc.1 j + x0 (ix3 (j 0) (j 1) (col ⟨k.val, hk⟩ (j 2)))
    ∧ (tripR_k0_t1 (F := Ideal) 𝒱 c bd i arg2 harg2 arg3 harg3 arg4 harg4 (harg2.unread x0) (harg3.unread x1) k acc).2.1 j
        = acc.2.1 j + x1 (ix3 (j 0) (j 1) (col ⟨k.val, hk⟩ (j 2)))
    ∧ (tripR_k0_t1 (F := Ideal) 𝒱 c bd i arg2 harg2 arg3 harg3 arg4 harg4 (harg2.unread x0) (harg3.unread x1) k acc).2.2 j
        = acc.2.2 j + x0 (ix3 (j 0) (j 1) (col ⟨k.val, hk⟩ (j 2))) * x1 (ix3 (j 0) (j 1) (col ⟨k.val, hk⟩ (j 2))) := by
  rw [trip_eq]
  refine ⟨?_, ?_, ?_⟩
  · show acc.1 j + x0 ((Rect.unit (s := S8x128x2048) (k0_off1 k) S8x128x128.size (k0_off1_inb k)).idx j) = _
    rw [chunk_idx k hk j]; rfl
  · show acc.2.1 j + x1 ((Rect.unit (s := S8x128x2048) (k0_off1 k) S8x128x128.size (k0_off1_inb k)).idx j) = _
    rw [chunk_idx k hk j]; rfl
  · show acc.2.2 j + x0 ((Rect.unit (s := S8x128x2048) (k0_off1 k) S8x128x128.size (k0_off1_inb k)).idx j)
        * x1 ((Rect.unit (s := S8x128x2048) (k0_off1 k) S8x128x128.size (k0_off1_inb k)).idx j) = _
    rw [chunk_idx k hk j]; rfl

/-- The three accumulators before trip `n`, from zero. -/
abbrev before (n : ℕ) : FVec Ideal S8x128x128 .f32 × FVec Ideal S8x128x128 .f32 × FVec Ideal S8x128x128 .f32 :=
  st_k0_t1 (F := Ideal) 𝒱 c bd i arg2 harg2 arg3 harg3 arg4 harg4 (harg2.unread x0) (harg3.unread x1)
    (k0_pay1 (F := Ideal), k0_pay2 (F := Ideal), k0_pay3 (F := Ideal)) n

/-- Before trip `n` the accumulators hold, at (b, r, l), the sums over the chunks k < n of x, of y and of x·y
    at time 128·k + l of row (b, r). -/
theorem before_apply : ∀ (n : ℕ) (hn : n ≤ 16) (j : S8x128x128.Idx),
    (before 𝒱 c bd i arg2 harg2 arg3 harg3 arg4 harg4 x0 x1 n).1 j
        = ∑ k : Fin n, x0 (ix3 (j 0) (j 1) (col ⟨k.val, by omega⟩ (j 2)))
    ∧ (before 𝒱 c bd i arg2 harg2 arg3 harg3 arg4 harg4 x0 x1 n).2.1 j
        = ∑ k : Fin n, x1 (ix3 (j 0) (j 1) (col ⟨k.val, by omega⟩ (j 2)))
    ∧ (before 𝒱 c bd i arg2 harg2 arg3 harg3 arg4 harg4 x0 x1 n).2.2 j
        = ∑ k : Fin n, x0 (ix3 (j 0) (j 1) (col ⟨k.val, by omega⟩ (j 2))) * x1 (ix3 (j 0) (j 1) (col ⟨k.val, by omega⟩ (j 2)))
  | 0, _, j => by
    refine ⟨?_, ?_, ?_⟩ <;>
    · show Ideal.ofBits .f32 0x00000000#32 = _
      rw [Ideal.ofBits_zero_f32]; rfl
  | n + 1, hn, j => by
    have hlt : n < k0_t1_loop.trips := by rw [trips_eq]; omega
    have hs : before 𝒱 c bd i arg2 harg2 arg3 harg3 arg4 harg4 x0 x1 (n + 1)
        = tripR_k0_t1 (F := Ideal) 𝒱 c bd i arg2 harg2 arg3 harg3 arg4 harg4 (harg2.unread x0) (harg3.unread x1) ⟨n, hlt⟩
            (before 𝒱 c bd i arg2 harg2 arg3 harg3 arg4 harg4 x0 x1 n) :=
      st_k0_t1_succ (F := Ideal) 𝒱 c bd i arg2 harg2 arg3 harg3 arg4 harg4 (harg2.unread x0) (harg3.unread x1) _ ⟨n, hlt⟩
    obtain ⟨h1, h2, h3⟩ := before_apply n (by omega) j
    obtain ⟨t1, t2, t3⟩ := trip_apply 𝒱 c bd i arg2 harg2 arg3 harg3 arg4 harg4 x0 x1 ⟨n, hlt⟩ (by show n < 16; omega)
      (before 𝒱 c bd i arg2 harg2 arg3 harg3 arg4 harg4 x0 x1 n) j
    rw [hs]
    refine ⟨?_, ?_, ?_⟩
    · rw [t1, h1, Fin.sum_univ_castSucc]; rfl
    · rw [t2, h2, Fin.sum_univ_castSucc]; rfl
    · rw [t3, h3, Fin.sum_univ_castSucc]; rfl

end

end Cert.KernelIdeal.Carried

end
-- ==== Proof.Payload.lean ====
/-
  What one grid point stores.

  After the 16 trips each accumulator is reduced over its lane axis, so the body's stored value at
  (p, q) of the (8, 128) output block is the streaming formula of the three row sums of row (p, q)
  of the two input blocks — each row sum taken as the sum over the 128 lanes of the sum over the 16
  chunks, which is how the accumulators were built.
-/
import proofs.«154748_j42090679500988_2_alg».proof.Proof.Carried

set_option maxRecDepth 16384

noncomputable section

namespace Cert.KernelIdeal.Payload

open Cert.KernelIdeal Cert.KernelIdeal.Gen Cert.KernelIdeal.Carried Idealize.ShloMosaic Idealize.ShloMosaic.ValueIdx Idealize.SL.Sem RowLaw

/-- The lane reduction of an accumulator at (p, q): the sum over the 128 lanes. -/
theorem lane_sum (v : FVec Ideal S8x128x128 .f32) (h : S8x128x128.Reduces [2] S8x128) (hφ : FKind.Formats .f32)
    (hacc : (0x00000000#32 : BitVec 32) = FKind.add.neutral .f32 hφ) (p : Fin 8) (q : Fin 128) :
    multiReduction .add [2] S8x128 v 0x00000000#32 h hφ hacc (ix2 p q) = ∑ l : Fin 128, v (ix3 p q l) :=
  (Ideal.multiReduction_add_single v _ h hφ hacc (ix2 p q)).trans
    (Finset.sum_congr rfl fun l _ => congrArg v (funext fun a => Fin.ext (by
      match a with | ⟨0, _⟩ => rfl | ⟨1, _⟩ => rfl | ⟨2, _⟩ => rfl)))

/-- The stored value at (p, q), from the three accumulators: the streaming formula of their lane sums. -/
theorem stored_apply (A B C : FVec Ideal S8x128x128 .f32) (p : Fin 8) (q : Fin 128) :
    k0_pay7 (F := Ideal) A B C (ix2 p q)
      = streaming (∑ l : Fin 128, A (ix3 p q l)) (∑ l : Fin 128, B (ix3 p q l)) (∑ l : Fin 128, C (ix3 p q l)) := by
  rw [← lane_sum A reduces_S8x128x128_S8x128 (.inl rfl) rfl p q, ← lane_sum B reduces_S8x128x128_S8x128 (.inl rfl) rfl p q,
    ← lane_sum C reduces_S8x128x128_S8x128 (.inl rfl) rfl p q]
  rfl

end Cert.KernelIdeal.Payload

end
-- ==== Proof.Point.lean ====
/-
  One grid point, one output element.

  At a grid point the body is handed a block of each input, of shape (8, 128, 2048), and leaves
  an (8, 128) block of output. Its element (p, q) is the streaming formula of the row sums of row
  (p, q) of the two blocks (the accumulators after all 16 trips, reduced over lanes); when that row
  of both blocks holds real numbers this is the centred formula of the row.
-/
import proofs.«154748_j42090679500988_2_alg».proof.Proof.Payload

set_option maxRecDepth 16384

noncomputable section

namespace Cert.KernelIdeal.Point

open Cert.KernelIdeal Cert.KernelIdeal.Gen Cert.KernelIdeal.Carried Cert.KernelIdeal.Payload
open Idealize.ShloMosaic Idealize.ShloMosaic.ValueIdx Idealize.SL.Sem RowLaw

variable (c : Dev nD) (i : grid0.Coords)
  (arg2 : Memref sig .tc .vmem S8x128x2048 .f32) (harg2 : arg2.IsWhole)
  (arg3 : Memref sig .tc .vmem S8x128x2048 .f32) (harg3 : arg3.IsWhole)
  (arg4 : Memref sig .tc .vmem S8x128 .f32) (harg4 : arg4.IsWhole)
  (x0 x1 : Vec Ideal S8x128x2048 .f32)

theorem origin2 : (![0, 0] : Fin 2 → Nat) = fun _ => 0 := funext fun a => by fin_cases a <;> rfl

/-- The block the body leaves is its one whole-block store: the stored value of the accumulators after the last trip. -/
theorem block_eq :
    out0_A_2 (F := Ideal) c i arg2 harg2 arg3 harg3 arg4 harg4 x0 x1
      = k0_pay7 (F := Ideal) (before Variants.none c none i arg2 harg2 arg3 harg3 arg4 harg4 x0 x1 16).1
          (before Variants.none c none i arg2 harg2 arg3 harg3 arg4 harg4 x0 x1 16).2.1
          (before Variants.none c none i arg2 harg2 arg3 harg3 arg4 harg4 x0 x1 16).2.2 := by
  have ht : Scf.trips (0#32) (Scalar.addi 0#32 16#32) 1#32 = 16 := trips_eq
  unfold out0_A_2
  rw [View.read_writes_eq_canon _ _ _ (cover0_A_2 c i arg2 harg2 arg3 harg3 arg4 harg4 x0 x1)]
  unfold kernelRun0_A
  dsimp only
  rw [View.canon_unit_zero origin2, ht]

/-- Element (p, q) of that block, when row (p, q) of both input blocks is real: the centred formula of the row. -/
theorem block_apply (p : Fin 8) (q : Fin 128)
    (h0 : ∀ s : Fin 2048, ∃ r : ℝ, x0 (ix3 p q s) = (r : EReal))
    (h1 : ∀ s : Fin 2048, ∃ r : ℝ, x1 (ix3 p q s) = (r : EReal)) :
    out0_A_2 (F := Ideal) c i arg2 harg2 arg3 harg3 arg4 harg4 x0 x1 (ix2 p q)
      = centred (fun s => x0 (ix3 p q s)) (fun s => x1 (ix3 p q s)) := by
  have hA : ∀ l : Fin 128, (before Variants.none c none i arg2 harg2 arg3 harg3 arg4 harg4 x0 x1 16).1 (ix3 p q l)
      = ∑ k : Fin 16, x0 (ix3 p q (col k l)) := fun l =>
    (before_apply Variants.none c none i arg2 harg2 arg3 harg3 arg4 harg4 x0 x1 16 le_rfl (ix3 p q l)).1
  have hB : ∀ l : Fin 128, (before Variants.none c none i arg2 harg2 arg3 harg3 arg4 harg4 x0 x1 16).2.1 (ix3 p q l)
      = ∑ k : Fin 16, x1 (ix3 p q (col k l)) := fun l =>
    (before_apply Variants.none c none i arg2 harg2 arg3 harg3 arg4 harg4 x0 x1 16 le_rfl (ix3 p q l)).2.1
  have hC : ∀ l : Fin 128, (before Variants.none c none i arg2 harg2 arg3 harg3 arg4 harg4 x0 x1 16).2.2 (ix3 p q l)
      = ∑ k : Fin 16, x0 (ix3 p q (col k l)) * x1 (ix3 p q (col k l)) := fun l =>
    (before_apply Variants.none c none i arg2 harg2 arg3 harg3 arg4 harg4 x0 x1 16 le_rfl (ix3 p q l)).2.2
  rw [block_eq, stored_apply]
  simp only [hA, hB, hC]
  exact streaming_eq_centred (fun s => x0 (ix3 p q s)) (fun s => x1 (ix3 p q s)) h0 h1

end Cert.KernelIdeal.Point

end
-- ==== Proof.Spec.lean ====
/-
  The result, as one function of the two argument arrays.

  Output element (b, c) is the centred formula of row (b, c): the 2048 time samples of both
  arrays at batch b, channel c.
-/
import proofs.«154748_j42090679500988_2_alg».proof.Proof.RowLaw
import Idealize.ShloMosaic.Lib.ValueIdx

noncomputable section

namespace CovSpec

open Idealize.ShloMosaic Idealize.ShloMosaic.ValueIdx

/-- relu (diag (cov) / 7), element by element: the centred formula of each (batch, channel) row. -/
def result (a0 a1 : (⟨3, ![16, 1024, 2048]⟩ : Shape).Idx → EReal) : (⟨2, ![16, 1024]⟩ : Shape).Idx → EReal :=
  fun i => RowLaw.centred (fun s => a0 (ix3 (n0 := 16) (n1 := 1024) (i 0) (i 1) s))
    (fun s => a1 (ix3 (n0 := 16) (n1 := 1024) (i 0) (i 1) s))

end CovSpec

end
-- ==== Proof.Blocks.lean ====
/-
  From grid points to the whole output array.

  The grid is 2 × 8: point (I, J) is handed rows 8·I … 8·I+7 (batch) by 128·J … 128·J+127 (channel),
  all 2048 times, of both inputs, and writes back the (8, 128) block of the output at the same batch
  and channel ranges. Element (p, q) of the block depends only on row (p, q) of the two input blocks,
  which is row (8·I + p, 128·J + q) of the arrays; so what every point writes back is the matching
  block of ONE function of the arrays (CovSpec.result), and since the 16 blocks tile the (16, 1024)
  output, the array ends holding that function — provided the arrays hold real numbers.
-/
import proofs.«154748_j42090679500988_2_alg».proof.Proof.Gen.KernelIdeal.Value
import proofs.«154748_j42090679500988_2_alg».proof.Proof.Point
import proofs.«154748_j42090679500988_2_alg».proof.Proof.Spec

set_option maxRecDepth 16384

noncomputable section

namespace Cert.KernelIdeal.Whole

open Cert.KernelIdeal Cert.KernelIdeal.Gen Cert.KernelIdeal.Value Cert.KernelIdeal.Point
open Idealize.ShloMosaic Idealize.ShloMosaic.TcCoe Idealize.ShloMosaic.ValueIdx Idealize.SL.Sem CovSpec
open Idealize.ShloMosaic.Pipeline (Dat)

/-- Element `y` of the block the body leaves, when rows of the input blocks are rows of arrays of reals:
    the result function of the arrays at the matching array index `I`. -/
theorem block_at (c : Dev nD) (i : grid0.Coords)
    (arg2 : Memref sig .tc .vmem S8x128x2048 .f32) (harg2 : arg2.IsWhole)
    (arg3 : Memref sig .tc .vmem S8x128x2048 .f32) (harg3 : arg3.IsWhole)
    (arg4 : Memref sig .tc .vmem S8x128 .f32) (harg4 : arg4.IsWhole)
    (x0 x1 : Vec Ideal S8x128x2048 .f32) (y : S8x128.Idx)
    (a0 a1 : S16x1024x2048.Idx → EReal) (I : S16x1024.Idx)
    (h0 : ∀ s : Fin 2048, x0 (ix3 (n0 := 8) (n1 := 128) (y 0) (y 1) s) = a0 (ix3 (n0 := 16) (n1 := 1024) (I 0) (I 1) s))
    (h1 : ∀ s : Fin 2048, x1 (ix3 (n0 := 8) (n1 := 128) (y 0) (y 1) s) = a1 (ix3 (n0 := 16) (n1 := 1024) (I 0) (I 1) s))
    (r0 : ∀ j, ∃ r : ℝ, a0 j = (r : EReal)) (r1 : ∀ j, ∃ r : ℝ, a1 j = (r : EReal)) :
    out0_A_2 (F := Ideal) c i arg2 harg2 arg3 harg3 arg4 harg4 x0 x1 y = result a0 a1 I := by
  obtain ⟨p, q, rfl⟩ : ∃ (p : Fin 8) (q : Fin 128), y = ix2 p q := ⟨y 0, y 1, eq_ix2 y⟩
  rw [block_apply c i arg2 harg2 arg3 harg3 arg4 harg4 x0 x1 p q
    (fun s => by obtain ⟨r, hr⟩ := r0 (ix3 (n0 := 16) (n1 := 1024) (I 0) (I 1) s); exact ⟨r, (h0 s).trans hr⟩)
    (fun s => by obtain ⟨r, hr⟩ := r1 (ix3 (n0 := 16) (n1 := 1024) (I 0) (I 1) s); exact ⟨r, (h1 s).trans hr⟩)]
  unfold result
  exact congrArg₂ RowLaw.centred (funext h0) (funext h1)

variable (m : (ℓ : Loc nD τ sig) → Buf (Elt Ideal) ℓ) (ρ : Dev nD → PrngReg)

/-- The printed index maps over the 16 grid points: both input windows move with the output window on the batch and
    channel axes and stay at 0 on the time axis; the output's block indices range over 2 × 8. -/
theorem idx_facts : ∀ t : Fin cfg0.N,
    win0_0.index t (0 : Fin 3) = win0_2.index t (0 : Fin 2) ∧ win0_0.index t (1 : Fin 3) = win0_2.index t (1 : Fin 2)
    ∧ win0_0.index t (2 : Fin 3) = 0
    ∧ win0_1.index t (0 : Fin 3) = win0_2.index t (0 : Fin 2) ∧ win0_1.index t (1 : Fin 3) = win0_2.index t (1 : Fin 2)
    ∧ win0_1.index t (2 : Fin 3) = 0
    ∧ win0_2.index t (0 : Fin 2) ≤ 1 ∧ win0_2.index t (1 : Fin 2) ≤ 7 :=
  (by decide +kernel : ∀ t : Fin grid0.N, _)

/-- Every block index of the 2 × 8 box is some grid point's. -/
theorem idx_onto : ∀ (q0 : Fin 2) (q1 : Fin 8), ∃ t : Fin cfg0.N, win0_2.index t = ![q0.val, q1.val] :=
  (by decide +kernel : ∀ (q0 : Fin 2) (q1 : Fin 8), ∃ t : Fin grid0.N, win0_2.index t = ![q0.val, q1.val])

/-- What point `t` writes back is block `t` of the result function of the arrays as the region finds them. -/
theorem flushed_eq (c : Dev nD)
    (r0 : ∀ j, ∃ r : ℝ, V m c main_arg0 j = (r : EReal)) (r1 : ∀ j, ∃ r : ℝ, V m c main_arg1 j = (r : EReal))
    (t : Fin cfg0.N) :
    (dats m 0 c).flushed 2 t
      = ((cfg0.win 2).blk t).view.read (Elt Ideal) (result (V m c main_arg0) (V m c main_arg1)) := by
  rw [flushed2]
  obtain ⟨e00, e01, e02, e10, e11, e12, -, -⟩ := idx_facts t
  funext j
  show out0_A_2 (F := Ideal) c (grid0.coords t) (ms0_0 t) (hs0_0 t) (ms0_1 t) (hs0_1 t) (ms0_2 t) (hs0_2 t) (iblk m c 0 t) (iblk m c 1 t) j
    = result (V m c main_arg0) (V m c main_arg1) (((cfg0.win 2).blk t).view.emb j)
  refine block_at c (grid0.coords t) (ms0_0 t) (hs0_0 t) (ms0_1 t) (hs0_1 t) (ms0_2 t) (hs0_2 t) (iblk m c 0 t) (iblk m c 1 t) j
    (V m c main_arg0) (V m c main_arg1) (((cfg0.win 2).blk t).view.emb j) ?_ ?_ r0 r1
  · intro s
    show V m c main_arg0 (((cfg0.win 0).blk t).view.emb (ix3 (n0 := 8) (n1 := 128) (j 0) (j 1) s)) = _
    refine congrArg (V m c main_arg0) (funext fun a => Fin.ext ?_)
    match a with
    | ⟨0, _⟩ => show win0_0.index t (0 : Fin 3) * 8 + 1 * (j 0).val = win0_2.index t (0 : Fin 2) * 8 + 1 * (j 0).val; omega
    | ⟨1, _⟩ => show win0_0.index t (1 : Fin 3) * 128 + 1 * (j 1).val = win0_2.index t (1 : Fin 2) * 128 + 1 * (j 1).val; omega
    | ⟨2, _⟩ => show win0_0.index t (2 : Fin 3) * 2048 + 1 * s.val = s.val; omega
  · intro s
    show V m c main_arg1 (((cfg0.win 1).blk t).view.emb (ix3 (n0 := 8) (n1 := 128) (j 0) (j 1) s)) = _
    refine congrArg (V m c main_arg1) (funext fun a => Fin.ext ?_)
    match a with
    | ⟨0, _⟩ => show win0_1.index t (0 : Fin 3) * 8 + 1 * (j 0).val = win0_2.index t (0 : Fin 2) * 8 + 1 * (j 0).val; omega
    | ⟨1, _⟩ => show win0_1.index t (1 : Fin 3) * 128 + 1 * (j 1).val = win0_2.index t (1 : Fin 2) * 128 + 1 * (j 1).val; omega
    | ⟨2, _⟩ => show win0_1.index t (2 : Fin 3) * 2048 + 1 * s.val = s.val; omega

/-- An index of the output array is in point `t`'s block iff each coordinate is in the block's range on its axis. -/
theorem mem_blk (t : Fin cfg0.N) (i : S16x1024.Idx) :
    i ∈ ((cfg0.win 2).blk t).view.set ↔ ∀ a : Fin 2, win0_2.index t a * S8x128.size a ≤ (i a).val ∧ (i a).val < win0_2.index t a * S8x128.size a + S8x128.size a := by
  show i ∈ ((View.whole main_v0).slice (win0_2.rect t)).set ↔ _
  rw [View.set_slice_whole, Rect.mem_set_unit]
  exact Iff.rfl

/-- The 16 blocks tile the output: element (b, c) is in the block of the point with block index (b / 8, c / 128). -/
theorem cover (i : S16x1024.Idx) : ∃ t : Fin cfg0.N, (cfg0.win 2).flush t = true ∧ i ∈ ((cfg0.win 2).blk t).view.set := by
  have hi0 : (i 0).val < 16 := (i 0).isLt
  have hi1 : (i 1).val < 1024 := (i 1).isLt
  obtain ⟨t, ht⟩ := idx_onto ⟨(i 0).val / 8, by omega⟩ ⟨(i 1).val / 128, by omega⟩
  have q0 : win0_2.index t (0 : Fin 2) = (i 0).val / 8 := congrFun ht 0
  have q1 : win0_2.index t (1 : Fin 2) = (i 1).val / 128 := congrFun ht 1
  refine ⟨t, flush0_2 t, ?_⟩
  rw [mem_blk]
  intro a
  match a with
  | ⟨0, _⟩ => show win0_2.index t (0 : Fin 2) * 8 ≤ (i 0).val ∧ (i 0).val < win0_2.index t (0 : Fin 2) * 8 + 8; omega
  | ⟨1, _⟩ => show win0_2.index t (1 : Fin 2) * 128 ≤ (i 1).val ∧ (i 1).val < win0_2.index t (1 : Fin 2) * 128 + 128; omega

/-- The output array after the run is the result function of the argument arrays, when they hold real numbers. -/
theorem final (c : Dev nD)
    (r0 : ∀ j, ∃ r : ℝ, m ((c : Thread nD τ).loc main_arg0) j = (r : EReal))
    (r1 : ∀ j, ∃ r : ℝ, m ((c : Thread nD τ).loc main_arg1) j = (r : EReal)) :
    (dats m 0 c).arrAt 2 cfg0.N = result (m ((c : Thread nD τ).loc main_arg0)) (m ((c : Thread nD τ).loc main_arg1)) :=
  (dats m 0 c).arrAt_eq_of_cover 2 (result (V m c main_arg0) (V m c main_arg1))
    (fun t _ => flushed_eq m c r0 r1 t) cover

/-- The kernel's run, read: from arrays of real numbers it ends with the result function of the arguments in the
    output array and the arguments unchanged. -/
theorem run
    (hr : ∀ c : Dev nD, (∀ j, ∃ r : ℝ, m ((c : Thread nD τ).loc main_arg0) j = (r : EReal))
      ∧ (∀ j, ∃ r : ℝ, m ((c : Thread nD τ).loc main_arg1) j = (r : EReal))) :
    θ_run defs (onTc (τ := τ) (main (F := Ideal))) ⟨m, fun _ => 0, ρ⟩ fun r => ∀ c : Dev nD,
      r.2.mem ((c : Thread nD τ).loc main_v0) = result (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hr c).1 (hr c).2), (h c).2⟩)
    (run_blocks m ρ)

end Cert.KernelIdeal.Whole

end
-- ==== Proof.RefRow.lean ====
/-
  The reference at one output element.

  At (b, c) the reference's result is the centred formula of row (b, c): both row means are the
  row sum (from the initial 0) divided by 2048, broadcast back along time; the centred samples are
  multiplied, summed over time from 0, divided by 7 and clamped below at 0.
-/
import proofs.«154748_j42090679500988_2_alg».proof.Proof.Gen.ReferenceIdeal.Read
import proofs.«154748_j42090679500988_2_alg».proof.Proof.Spec
import Idealize.ShloMosaic.Lib.ValueIdx

set_option maxRecDepth 16384

noncomputable section

namespace Cert.ReferenceIdeal.Row

open Cert.ReferenceIdeal Cert.ReferenceIdeal.Read Idealize.ShloMosaic Idealize.ShloMosaic.ValueIdx RowLaw

/-- The reference's result at (b, c) is the centred formula of row (b, c) of its two arguments. -/
theorem result_apply (x0 x1 : (⟨S16x1024x2048, .f32⟩ : BufTy).Contents (Elt Ideal)) (b : Fin 16) (c : Fin 1024) :
    val_main_v17 (F := Ideal) x0 x1 (ix2 b c) = centred (fun t => x0 (ix3 b c t)) (fun t => x1 (ix3 b c t)) := by
  have e13 : ∀ k : Fin 2048, idx_main_v13 (ix2 b c) k = ix3 b c k := fun k =>
    funext fun a => Fin.ext (by match a with | ⟨0, _⟩ => rfl | ⟨1, _⟩ => rfl | ⟨2, _⟩ => rfl)
  have e0 : ∀ k s : Fin 2048, idx_main_v0 (idx_main_v1 (idx_main_v4 (ix3 b c k))) s = ix3 b c s := fun k s =>
    funext fun a => Fin.ext (by match a with | ⟨0, _⟩ => rfl | ⟨1, _⟩ => rfl | ⟨2, _⟩ => rfl)
  have e6 : ∀ k s : Fin 2048, idx_main_v6 (idx_main_v7 (idx_main_v10 (ix3 b c k))) s = ix3 b c s := fun k s =>
    funext fun a => Fin.ext (by match a with | ⟨0, _⟩ => rfl | ⟨1, _⟩ => rfl | ⟨2, _⟩ => rfl)
  simp only [val_main_v17_apply, val_main_v16_apply, val_main_cst_5_apply, val_main_v15_apply, val_main_v14_apply,
    val_main_cst_4_apply, val_main_v13_apply, val_main_cst_3_apply, val_main_v12_apply, val_main_v5_apply,
    val_main_v4_apply, val_main_v3_apply, val_main_v2_apply, val_main_cst_0_apply, val_main_v1_apply,
    val_main_v0_apply, val_main_cst_apply, val_main_v11_apply, val_main_v10_apply, val_main_v9_apply,
    val_main_v8_apply, val_main_cst_2_apply, val_main_v7_apply, val_main_v6_apply, val_main_cst_1_apply,
    e13, e0, e6, Ideal.maximumf_def, Ideal.hostDivf_def, Ideal.mulf_def, Ideal.subf_def, Ideal.ofBits_def]
  rfl

/-- So the reference's result array is the result function of its two arguments. -/
theorem result_eq (x0 x1 : (⟨S16x1024x2048, .f32⟩ : BufTy).Contents (Elt Ideal)) :
    val_main_v17 (F := Ideal) x0 x1 = CovSpec.result x0 x1 := by
  funext i
  obtain ⟨b, c, rfl⟩ : ∃ (b : Fin 16) (c : Fin 1024), i = ix2 b c := ⟨i 0, i 1, eq_ix2 i⟩
  exact result_apply x0 x1 b c

end Cert.ReferenceIdeal.Row

end
-- ==== Proof.Finite.lean ====
/-
  The precondition says every input sample is a real number.

  The printed precondition is the conjunction of two `all`s: for each argument, the reduction by
  `and` over every index of "|a| < +inf". An extended real whose absolute value max a (-a) lies
  strictly below the top element is neither infinity, hence a real.
-/
import proofs.«154748_j42090679500988_2_alg».proof.Pre_finite_inputs
import proofs.«154748_j42090679500988_2_alg».proof.Proof.Gen.Pre_finite_inputs
import Idealize.ShloMosaic.PureOps.Ideal
import Idealize.ShloMosaic.Lib.ReduceAll
import Idealize.ShloMosaic.Lib.ValueIdx
import Idealize.ShloMosaic.Lib.Affine

set_option maxRecDepth 16384

noncomputable section

namespace Cert.Finite

open Idealize.ShloMosaic Cert.Pre_finite_inputs

instance : Subsingleton S_.Idx := ⟨fun a b => funext fun d => d.elim0⟩

/-- The pattern of `+inf` denotes the top element. -/
theorem ofBits_inf : Ideal.ofBits .f32 0x7F800000#32 = (⊤ : EReal) := by
  simp [Ideal.ofBits, Ideal.ieee]

/-- An extended real with max x (-x) < ⊤ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One sample passing the printed test "|a| < +inf" is a real. -/
theorem real_of_test (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- Under the printed precondition every sample of both arguments is a real number. -/
theorem reals_of_pre (a0 a1 : FVec Ideal S16x1024x2048 .f32)
    (h : fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [fn] at h0
  obtain ⟨hA, hB⟩ := IntOp.andi_eq_one.1 h0
  refine ⟨fun i => ?_, fun i => ?_⟩
  · exact real_of_test (a0 i) (Host.reduce_andi_all _ _ _ _ _ hA i)
  · exact real_of_test (a1 i) (Host.reduce_andi_all _ _ _ _ _ hB i)

end Cert.Finite

end
-- ==== Proof.lean ====
/-
  Temporal cross-covariance, diagonal only: relu (Σ_t (x_t - mean x)(y_t - mean y) / 7) per (batch, channel),
  over two arrays of shape (16, 1024, 2048).

  The kernel streams each row once: over a 2 × 8 grid of (8, 128, 2048) blocks it accumulates, chunk by chunk of
  128 times, the lane-wise partial sums of x, y and x·y, reduces them over lanes, and forms
  (Σxy - 2048 · (Σx / 2048) · (Σy / 2048)) / 7, clamped at 0. The reference subtracts the row means first and sums
  the centred products. On real numbers the two agree by the covariance identity
  Σ (x - mx)(y - my) = Σ xy - N·mx·my (CovLaw), once the kernel's lane-by-lane, chunk-by-chunk sums are re-indexed
  as sums over time (RowLaw); the precondition makes every sample a real (Finite). The kernel's value at a grid
  point is read off the loop's carried accumulators (Carried, Payload, Point) and assembled over the grid into one
  function of the arrays (Blocks); the reference's run is read operation by operation (RefRow). The three frames are
  the programs' runs with the results dropped; the idealization rewrote nothing, so there is nothing to preserve.
-/
import proofs.«154748_j42090679500988_2_alg».proof.Defs
import proofs.«154748_j42090679500988_2_alg».proof.Proof.Gen.Kernel
import proofs.«154748_j42090679500988_2_alg».proof.Proof.Gen.Kernel.Skeleton
import proofs.«154748_j42090679500988_2_alg».proof.Proof.Gen.Kernel.Loops
import proofs.«154748_j42090679500988_2_alg».proof.Proof.Gen.Kernel.Launch
import proofs.«154748_j42090679500988_2_alg».proof.Proof.Gen.Kernel.Points
import proofs.«154748_j42090679500988_2_alg».proof.Proof.Gen.Kernel.Frame
import proofs.«154748_j42090679500988_2_alg».proof.Proof.Gen.KernelIdeal
import proofs.«154748_j42090679500988_2_alg».proof.Proof.Gen.KernelIdeal.Skeleton
import proofs.«154748_j42090679500988_2_alg».proof.Proof.Gen.KernelIdeal.Loops
import proofs.«154748_j42090679500988_2_alg».proof.Proof.Gen.KernelIdeal.Launch
import proofs.«154748_j42090679500988_2_alg».proof.Proof.Gen.KernelIdeal.Points
import proofs.«154748_j42090679500988_2_alg».proof.Proof.Gen.KernelIdeal.Frame
import proofs.«154748_j42090679500988_2_alg».proof.Proof.Gen.ReferenceIdeal
import proofs.«154748_j42090679500988_2_alg».proof.Proof.Gen.Pre_finite_inputs
import proofs.«154748_j42090679500988_2_alg».proof.Proof.Gen.KernelIdeal.Value
import proofs.«154748_j42090679500988_2_alg».proof.Proof.Gen.ReferenceIdeal.Run
import proofs.«154748_j42090679500988_2_alg».proof.Proof.Gen.ReferenceIdeal.Read
import proofs.«154748_j42090679500988_2_alg».proof.Proof.Blocks
import proofs.«154748_j42090679500988_2_alg».proof.Proof.RefRow
import proofs.«154748_j42090679500988_2_alg».proof.Proof.Finite
import Idealize.ShloMosaic.Adequacy
import Idealize.ShloMosaic.Init

noncomputable section

namespace Cert.Proof

open Idealize.ShloMosaic Idealize.SL.Sem Cert.Kernel

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arrays of real numbers both programs end with the result function of the arguments: the kernel by the
    streaming formula block by block, the reference by the centred formula, equal on reals. -/
theorem algebraic : Cert.algebraic_KernelIdeal_ReferenceIdeal := by
  intro m ρ m' ρ' hpre hagree
  have hr : ∀ c : Dev Cert.KernelIdeal.nD,
      (∀ j, ∃ r : ℝ, m ((c.tc : Thread Cert.KernelIdeal.nD Cert.KernelIdeal.τ).loc Cert.KernelIdeal.main_arg0) j = (r : EReal))
      ∧ (∀ j, ∃ r : ℝ, m ((c.tc : Thread Cert.KernelIdeal.nD Cert.KernelIdeal.τ).loc Cert.KernelIdeal.main_arg1) j = (r : EReal)) :=
    fun c => Cert.Finite.reals_of_pre _ _ (hpre c)
  refine ⟨fun c => CovSpec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.Row.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
